-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x16 .f32) (main_arg1 : IVec S2x1600000 32) (main_arg2 : FVec F S16x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x16 : Shape := ⟨2, ![100000, 16]⟩
abbrev S2x1600000 : Shape := ⟨2, ![2, 1600000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x16 : Shape := ⟨2, ![10000, 16]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 88
  | .vmem => 26
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S1x1, .f32⟩
  | .hbm, ⟨87, _⟩ => ⟨S100000x1, .f32⟩
  | .local _ .vmem, ⟨0, _⟩ => ⟨S10000x16, .f32⟩
  | .local _ .vmem, ⟨1, _⟩ => ⟨S10000x16, .f32⟩
  | .local _ .vmem, ⟨2, _⟩ => ⟨S16x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x16_S16x64_S10000x64_1_0_0_1_n_n_wf : DotDims.WF S10000x16 S16x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x16, .f32⟩
  | 1 => ⟨S2x1600000, .i32⟩
  | 2 => ⟨S16x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S1700000x1, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S100000x64, .f32⟩
  | 112 => ⟨S1700000x1, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x16, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x1, .f32⟩
  | 7 => ⟨S1x1, .f32⟩
  | 8 => ⟨S100000x1, .f32⟩
  | 9 => ⟨S100000x1, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S_, .f32⟩
  | 16 => ⟨S100000x1, .f32⟩
  | 17 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x16_S16x64_S100000x64_1_0_0_1_n_n_wf : DotDims.WF S100000x16 S16x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result named.

  Every weakly fair execution of the program terminates without a fault; at the end the result buffer holds
  what the last region's write-backs leave in it (the contents of the buffers at the last segment boundary,
  read at the result's buffer), and the eight argument arrays are as launched. The run is the program's
  eleven segments (six stretches of host operations, five regions) taken in order, each from the contents the
  previous one leaves.
-/
import proofs.«179360_j41644002902519_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Gen

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«179360_j41644002902519_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.Dense1.lean ====
/-
  The first projection, x · W1, block by block.

  The grid has ten points; point t takes rows 10000·t … 10000·t + 9999 of x and all of W1, and writes the
  same rows of the product. Entry (p, q) of a block is the sum over k of x[10000·t + p, k] · W1[k, q] (the
  rounding of the operands to bf16 is the identity on the extended reals), which is entry (10000·t + p, q)
  of the product of the whole arrays. The ten blocks tile the 100000 rows, so after the region the output
  array is the whole product.
-/
import proofs.«179360_j41644002902519_1_alg».proof.Proof.Gen.KernelIdeal.Frame
import proofs.«179360_j41644002902519_1_alg».proof.ReferenceIdeal
import proofs.«179360_j41644002902519_1_alg».proof.Proof.LibDotRead
import Idealize.ShloMosaic.Lib.Pipeline.Value
import Idealize.ShloMosaic.Lib.ValueIdx

set_option maxRecDepth 16384

noncomputable section

namespace Cert.KernelIdeal.Dense1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable [Cert.ReferenceIdeal.Facts]

theorem hz : (![0, 0] : Fin 2 → Nat) = fun _ => 0 := funext fun a => by fin_cases a <;> rfl

/-- The product of the whole arrays, as the host computes it. -/
abbrev G (x : FVec Ideal S100000x16 .f32) (w : FVec Ideal S16x64 .f32) : FVec Ideal S100000x64 .f32 :=
  Host.dotGeneral (F := Ideal) (φ₁ := .f32) (φ₂ := .f32) Cert.ReferenceIdeal.dot_S100000x16_S16x64_S100000x64_1_0_0_1_n_n none x w

/-- Entry (p, q) of the body's result is the sum over k of lhs[p, k] · rhs[k, q]. -/
theorem pay_ix2 (x0 : FVec Ideal S10000x16 .f32) (x1 : FVec Ideal S16x64 .f32) (p : Fin 10000) (q : Fin 64) :
    k0_pay1 (F := Ideal) x0 x1 (ix2 p q) = ∑ k : Fin 16, x0 (ix2 p k) * x1 (ix2 k q) := by
  unfold k0_pay1
  exact MatmulRead.matmul_zero_ix2 (D := dot_S10000x16_S16x64_S10000x64_1_0_0_1_n_n) ⟨rfl, rfl, rfl, rfl, rfl, rfl⟩ rfl rfl none
    (truncf .bf16 x0 bitsLt_bf16_f32) (truncf .bf16 x1 bitsLt_bf16_f32) p q

/-- Entry (P, q) of the whole product is the sum over k of x[P, k] · w[k, q]. -/
theorem G_ix2 (x : FVec Ideal S100000x16 .f32) (w : FVec Ideal S16x64 .f32) (P : Fin 100000) (q : Fin 64) :
    G x w (ix2 P q) = ∑ k : Fin 16, x (ix2 P k) * w (ix2 k q) :=
  MatmulRead.hostDot_ix2 (D := Cert.ReferenceIdeal.dot_S100000x16_S16x64_S100000x64_1_0_0_1_n_n) ⟨rfl, rfl, rfl, rfl, rfl, rfl⟩ rfl rfl none x w P q

/-- The printed index maps over the grid: the row block of x and of the output is the point's number, every
    other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

section
variable (V : (c : Dev nD) → (b : Ref sig .tc) → Buf (Elt Ideal) ((c : Thread nD τ).loc b))

/-- What point t writes back is block t of the whole product of the arrays the region finds. -/
theorem flushed_eq (c : Dev nD) (t : Fin cfg0.N) :
    (dat0 (F := Ideal) V c).flushed 2 t = ((cfg0.win 2).blk t).view.read (Elt Ideal) (G (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x16) hz, View.ld_unit_zero (S := S16x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q) = G (V c main_arg0) (V c main_arg2) (((cfg0.win 2).blk t).view.emb (ix2 p q))
  have hP : win0_2.index t (0 : Fin 2) * 10000 + p.val < 100000 := by have := p.isLt; omega
  have hemb : ((cfg0.win 2).blk t).view.emb (ix2 p q) = ix2 (⟨win0_2.index t (0 : Fin 2) * 10000 + p.val, hP⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  rw [hemb]
  refine (pay_ix2 (iblk0 V c 0 t) (iblk0 V c 1 t) p q).trans ((Finset.sum_congr rfl fun k _ => ?_).trans (G_ix2 (V c main_arg0) (V c main_arg2) _ q).symm)
  have h0 : ((cfg0.win 0).blk t).view.emb (ix2 p k) = ix2 (⟨win0_2.index t (0 : Fin 2) * 10000 + p.val, hP⟩ : Fin 100000) k := by
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 16 + 1 * k.val = k.val; omega
  have h1 : ((cfg0.win 1).blk t).view.emb (ix2 k q) = ix2 k q := by
    funext a; apply Fin.ext
    match a with
    | ⟨0, _⟩ => show win0_1.index t (0 : Fin 2) * 16 + 1 * k.val = k.val; omega
    | ⟨1, _⟩ => show win0_1.index t (1 : Fin 2) * 64 + 1 * q.val = q.val; omega
  have hx : iblk0 V c 0 t (ix2 p k) = V c main_arg0 (ix2 (⟨win0_2.index t (0 : Fin 2) * 10000 + p.val, hP⟩ : Fin 100000) k) := by
    show V c main_arg0 (((cfg0.win 0).blk t).view.emb (ix2 p k)) = _
    rw [h0]
  have hw : iblk0 V c 1 t (ix2 k q) = V c main_arg2 (ix2 k q) := by
    show V c main_arg2 (((cfg0.win 1).blk t).view.emb (ix2 k q)) = _
    rw [h1]
  rw [hx, hw]

/-- An index of the output array is in point t's block iff its coordinates are in the block's ranges. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r lies in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array is the product of the arrays the region found. -/
theorem final (c : Dev nD) : (dat0 (F := Ideal) V c).arrAt 2 cfg0.N = G (V c main_arg0) (V c main_arg2) :=
  (dat0 (F := Ideal) V c).arrAt_eq_of_cover 2 (G (V c main_arg0) (V c main_arg2)) (fun t _ => flushed_eq V c t) cover

end

end Cert.KernelIdeal.Dense1

end
-- ==== Proof.Dense2.lean ====
/-
  The second projection, h · W2, block by block.

  The grid has ten points; point t takes rows 10000·t … 10000·t + 9999 of the hidden features h and all of W2,
  and writes the same rows of the product. Entry (p, q) of a block is the sum over k of
  h[10000·t + p, k] · W2[k, q] (the rounding of the operands to bf16 is the identity on the extended reals), which
  is entry (10000·t + p, q) of the product of the whole arrays. The ten blocks tile the 100000 rows, so after the
  region the output array is the whole product.
-/
import proofs.«179360_j41644002902519_1_alg».proof.Proof.Gen.KernelIdeal.Frame
import proofs.«179360_j41644002902519_1_alg».proof.ReferenceIdeal
import proofs.«179360_j41644002902519_1_alg».proof.Proof.LibDotRead
import Idealize.ShloMosaic.Lib.Pipeline.Value
import Idealize.ShloMosaic.Lib.ValueIdx

set_option maxRecDepth 16384

noncomputable section

namespace Cert.KernelIdeal.Dense2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable [Cert.ReferenceIdeal.Facts]

theorem hz : (![0, 0] : Fin 2 → Nat) = fun _ => 0 := funext fun a => by fin_cases a <;> rfl

/-- The product of the whole arrays, as the host computes it. -/
abbrev G (x : FVec Ideal S100000x64 .f32) (w : FVec Ideal S64x64 .f32) : FVec Ideal S100000x64 .f32 :=
  Host.dotGeneral (F := Ideal) (φ₁ := .f32) (φ₂ := .f32) Cert.ReferenceIdeal.dot_S100000x64_S64x64_S100000x64_1_0_0_1_n_n none x w

/-- Entry (p, q) of the body's result is the sum over k of lhs[p, k] · rhs[k, q]. -/
theorem pay_ix2 (x0 : FVec Ideal S10000x64 .f32) (x1 : FVec Ideal S64x64 .f32) (p : Fin 10000) (q : Fin 64) :
    k2_pay1 (F := Ideal) x0 x1 (ix2 p q) = ∑ k : Fin 64, x0 (ix2 p k) * x1 (ix2 k q) := by
  unfold k2_pay1
  show FloatOps.matmul dot_S10000x64_S64x64_S10000x64_1_0_0_1_n_n none
      (truncf .bf16 (shapeCast S10000x64 x0 shapeCasts_S10000x64_S10000x64) bitsLt_bf16_f32) (truncf .bf16 x1 bitsLt_bf16_f32)
      (constant S10000x64 .f32 0x00000000#32) (ix2 p q) = _
  rw [shapeCast_self]
  exact MatmulRead.matmul_zero_ix2 (D := dot_S10000x64_S64x64_S10000x64_1_0_0_1_n_n) ⟨rfl, rfl, rfl, rfl, rfl, rfl⟩ rfl rfl none
    (truncf .bf16 x0 bitsLt_bf16_f32) (truncf .bf16 x1 bitsLt_bf16_f32) p q

/-- Entry (P, q) of the whole product is the sum over k of x[P, k] · w[k, q]. -/
theorem G_ix2 (x : FVec Ideal S100000x64 .f32) (w : FVec Ideal S64x64 .f32) (P : Fin 100000) (q : Fin 64) :
    G x w (ix2 P q) = ∑ k : Fin 64, x (ix2 P k) * w (ix2 k q) :=
  MatmulRead.hostDot_ix2 (D := Cert.ReferenceIdeal.dot_S100000x64_S64x64_S100000x64_1_0_0_1_n_n) ⟨rfl, rfl, rfl, rfl, rfl, rfl⟩ rfl rfl none x w P q

/-- The printed index maps over the grid: the row block of x and of the output is the point's number, every
    other block index is zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every row block is some point's. -/
theorem idx_onto : ∀ (q0 : Fin 10), ∃ t : Fin cfg2.N, win2_2.index t = ![q0.val, 0] :=
  (by decide +kernel : ∀ (q0 : Fin 10), ∃ t : Fin grid2.N, win2_2.index t = ![q0.val, 0])

section
variable (V : (c : Dev nD) → (b : Ref sig .tc) → Buf (Elt Ideal) ((c : Thread nD τ).loc b))

/-- What point t writes back is block t of the whole product of the arrays the region finds. -/
theorem flushed_eq (c : Dev nD) (t : Fin cfg2.N) :
    (dat2 (F := Ideal) V c).flushed 2 t = ((cfg2.win 2).blk t).view.read (Elt Ideal) (G (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q) = G (V c main_v45) (V c main_arg4) (((cfg2.win 2).blk t).view.emb (ix2 p q))
  have hP : win2_2.index t (0 : Fin 2) * 10000 + p.val < 100000 := by have := p.isLt; omega
  have hemb : ((cfg2.win 2).blk t).view.emb (ix2 p q) = ix2 (⟨win2_2.index t (0 : Fin 2) * 10000 + p.val, hP⟩ : Fin 100000) q := by
    funext a; apply Fin.ext
    match a with
    | ⟨0, _⟩ => show win2_2.index t (0 : Fin 2) * 10000 + 1 * p.val = win2_2.index t (0 : Fin 2) * 10000 + p.val; omega
    | ⟨1, _⟩ => show win2_2.index t (1 : Fin 2) * 64 + 1 * q.val = q.val; omega
  rw [hemb]
  refine (pay_ix2 (iblk2 V c 0 t) (iblk2 V c 1 t) p q).trans ((Finset.sum_congr rfl fun k _ => ?_).trans (G_ix2 (V c main_v45) (V c main_arg4) _ q).symm)
  have h0 : ((cfg2.win 0).blk t).view.emb (ix2 p k) = ix2 (⟨win2_2.index t (0 : Fin 2) * 10000 + p.val, hP⟩ : Fin 100000) k := by
    funext a; apply Fin.ext
    match a with
    | ⟨0, _⟩ => show win2_0.index t (0 : Fin 2) * 10000 + 1 * p.val = win2_2.index t (0 : Fin 2) * 10000 + p.val; omega
    | ⟨1, _⟩ => show win2_0.index t (1 : Fin 2) * 64 + 1 * k.val = k.val; omega
  have h1 : ((cfg2.win 1).blk t).view.emb (ix2 k q) = ix2 k q := by
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  have hx : iblk2 V c 0 t (ix2 p k) = V c main_v45 (ix2 (⟨win2_2.index t (0 : Fin 2) * 10000 + p.val, hP⟩ : Fin 100000) k) := by
    show V c main_v45 (((cfg2.win 0).blk t).view.emb (ix2 p k)) = _
    rw [h0]
  have hw : iblk2 V c 1 t (ix2 k q) = V c main_arg4 (ix2 k q) := by
    show V c main_arg4 (((cfg2.win 1).blk t).view.emb (ix2 k q)) = _
    rw [h1]
  rw [hx, hw]

/-- An index of the output array is in point t's block iff its coordinates are in the block's ranges. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r lies in the block of point r / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region the output array is the product of the arrays the region found. -/
theorem final (c : Dev nD) : (dat2 (F := Ideal) V c).arrAt 2 cfg2.N = G (V c main_v45) (V c main_arg4) :=
  (dat2 (F := Ideal) V c).arrAt_eq_of_cover 2 (G (V c main_v45) (V c main_arg4)) (fun t _ => flushed_eq V c t) cover

end

end Cert.KernelIdeal.Dense2

end
-- ==== Proof.BiasRelu1.lean ====
/-
  The first layer's bias and cut-off, block by block.

  The grid has ten points; point t takes rows 10000·t … 10000·t + 9999 of the aggregated messages and the one
  row of the bias, and writes the same rows of max(agg + bias, 0): entry (p, q) of a block is
  max(agg[10000·t + p, q] + bias[0, q], 0). The ten blocks tile the 100000 rows, so after the region the output
  array is that function of the whole arrays, index by index.
-/
import proofs.«179360_j41644002902519_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem hz : (![0, 0] : Fin 2 → Nat) = fun _ => 0 := funext fun a => by fin_cases a <;> rfl

/-- Row by row, the messages plus the bias row, cut off below at zero. -/
def G (a : FVec Ideal S100000x64 .f32) (b : FVec Ideal S1x64 .f32) : FVec Ideal S100000x64 .f32 :=
  fun i => FloatOps.maximumf (F := Ideal) (φ := .f32) (FloatOps.addf (a i) (b (ix2 (0 : Fin 1) (⟨(i 1).val, (i 1).isLt⟩ : Fin 64)))) (FloatOps.ofBits .f32 0x00000000#32)

theorem G_ix2 (a : FVec Ideal S100000x64 .f32) (b : FVec Ideal S1x64 .f32) (P : Fin 100000) (q : Fin 64) :
    G a b (ix2 P q) = FloatOps.maximumf (F := Ideal) (φ := .f32) (FloatOps.addf (a (ix2 P q)) (b (ix2 (0 : Fin 1) q))) (FloatOps.ofBits .f32 0x00000000#32) := rfl

/-- Entry (p, q) of the body's result. -/
theorem pay_ix2 (x0 : FVec Ideal S10000x64 .f32) (x1 : FVec Ideal S1x64 .f32) (p : Fin 10000) (q : Fin 64) :
    k1_pay1 (F := Ideal) x0 x1 (ix2 p q)
      = FloatOps.maximumf (F := Ideal) (φ := .f32) (FloatOps.addf (x0 (ix2 p q)) (x1 (ix2 (0 : Fin 1) q))) (FloatOps.ofBits .f32 0x00000000#32) := by
  unfold k1_pay1
  show FloatOps.maximumf (F := Ideal) (φ := .f32) (FloatOps.addf (shapeCast S10000x64 x0 shapeCasts_S10000x64_S10000x64 (ix2 p q))
      (broadcastTo S10000x64 (shapeCast S1x64 x1 shapeCasts_S1x64_S1x64) broadcasts_S1x64_S10000x64 (ix2 p q))) _ = _
  rw [shapeCast_self, shapeCast_self, broadcastTo_1b_ab_apply]
  rfl

/-- The printed index maps over the grid. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every row block is some point's. -/
theorem idx_onto : ∀ (q0 : Fin 10), ∃ t : Fin cfg1.N, win1_2.index t = ![q0.val, 0] :=
  (by decide +kernel : ∀ (q0 : Fin 10), ∃ t : Fin grid1.N, win1_2.index t = ![q0.val, 0])

section
variable (V : (c : Dev nD) → (b : Ref sig .tc) → Buf (Elt Ideal) ((c : Thread nD τ).loc b))

/-- What point t writes back is block t of the function of the whole arrays. -/
theorem flushed_eq (c : Dev nD) (t : Fin cfg1.N) :
    (dat1 (F := Ideal) V c).flushed 2 t = ((cfg1.win 2).blk t).view.read (Elt Ideal) (G (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q) = G (V c main_v43) (V c main_v44) (((cfg1.win 2).blk t).view.emb (ix2 p q))
  have hP : win1_2.index t (0 : Fin 2) * 10000 + p.val < 100000 := by have := p.isLt; omega
  have hemb : ((cfg1.win 2).blk t).view.emb (ix2 p q) = ix2 (⟨win1_2.index t (0 : Fin 2) * 10000 + p.val, hP⟩ : Fin 100000) q := by
    funext a; apply Fin.ext
    match a with
    | ⟨0, _⟩ => show win1_2.index t (0 : Fin 2) * 10000 + 1 * p.val = win1_2.index t (0 : Fin 2) * 10000 + p.val; omega
    | ⟨1, _⟩ => show win1_2.index t (1 : Fin 2) * 64 + 1 * q.val = q.val; omega
  rw [hemb, G_ix2]
  refine (pay_ix2 (iblk1 V c 0 t) (iblk1 V c 1 t) p q).trans ?_
  have h0 : ((cfg1.win 0).blk t).view.emb (ix2 p q) = ix2 (⟨win1_2.index t (0 : Fin 2) * 10000 + p.val, hP⟩ : Fin 100000) q := by
    funext a; apply Fin.ext
    match a with
    | ⟨0, _⟩ => show win1_0.index t (0 : Fin 2) * 10000 + 1 * p.val = win1_2.index t (0 : Fin 2) * 10000 + p.val; omega
    | ⟨1, _⟩ => show win1_0.index t (1 : Fin 2) * 64 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  show FloatOps.maximumf (F := Ideal) (φ := .f32) (FloatOps.addf (V c main_v43 (((cfg1.win 0).blk t).view.emb (ix2 p q))) (V c main_v44 (((cfg1.win 1).blk t).view.emb (ix2 (0 : Fin 1) q)))) _ = _
  rw [h0, h1]

/-- An index of the output array is in point t's block iff its coordinates are in the block's ranges. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row r lies in the block of point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the output array is that function of the arrays the region found. -/
theorem final (c : Dev nD) : (dat1 (F := Ideal) V c).arrAt 2 cfg1.N = G (V c main_v43) (V c main_v44) :=
  (dat1 (F := Ideal) V c).arrAt_eq_of_cover 2 (G (V c main_v43) (V c main_v44)) (fun t _ => flushed_eq V c t) cover

end

end Cert.KernelIdeal.BiasRelu1

end
-- ==== Proof.BiasRelu2.lean ====
/-
  The second layer's bias and cut-off, block by block.

  The grid has ten points; point t takes rows 10000·t … 10000·t + 9999 of the aggregated messages and the one
  row of the bias, and writes the same rows of max(agg + bias, 0): entry (p, q) of a block is
  max(agg[10000·t + p, q] + bias[0, q], 0). The ten blocks tile the 100000 rows, so after the region the output
  array is that function of the whole arrays, index by index.
-/
import proofs.«179360_j41644002902519_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem hz : (![0, 0] : Fin 2 → Nat) = fun _ => 0 := funext fun a => by fin_cases a <;> rfl

/-- Row by row, the messages plus the bias row, cut off below at zero. -/
def G (a : FVec Ideal S100000x64 .f32) (b : FVec Ideal S1x64 .f32) : FVec Ideal S100000x64 .f32 :=
  fun i => FloatOps.maximumf (F := Ideal) (φ := .f32) (FloatOps.addf (a i) (b (ix2 (0 : Fin 1) (⟨(i 1).val, (i 1).isLt⟩ : Fin 64)))) (FloatOps.ofBits .f32 0x00000000#32)

theorem G_ix2 (a : FVec Ideal S100000x64 .f32) (b : FVec Ideal S1x64 .f32) (P : Fin 100000) (q : Fin 64) :
    G a b (ix2 P q) = FloatOps.maximumf (F := Ideal) (φ := .f32) (FloatOps.addf (a (ix2 P q)) (b (ix2 (0 : Fin 1) q))) (FloatOps.ofBits .f32 0x00000000#32) := rfl

/-- Entry (p, q) of the body's result. -/
theorem pay_ix2 (x0 : FVec Ideal S10000x64 .f32) (x1 : FVec Ideal S1x64 .f32) (p : Fin 10000) (q : Fin 64) :
    k3_pay1 (F := Ideal) x0 x1 (ix2 p q)
      = FloatOps.maximumf (F := Ideal) (φ := .f32) (FloatOps.addf (x0 (ix2 p q)) (x1 (ix2 (0 : Fin 1) q))) (FloatOps.ofBits .f32 0x00000000#32) := by
  unfold k3_pay1
  show FloatOps.maximumf (F := Ideal) (φ := .f32) (FloatOps.addf (shapeCast S10000x64 x0 shapeCasts_S10000x64_S10000x64 (ix2 p q))
      (broadcastTo S10000x64 (shapeCast S1x64 x1 shapeCasts_S1x64_S1x64) broadcasts_S1x64_S10000x64 (ix2 p q))) _ = _
  rw [shapeCast_self, shapeCast_self, broadcastTo_1b_ab_apply]
  rfl

/-- The printed index maps over the grid. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every row block is some point's. -/
theorem idx_onto : ∀ (q0 : Fin 10), ∃ t : Fin cfg3.N, win3_2.index t = ![q0.val, 0] :=
  (by decide +kernel : ∀ (q0 : Fin 10), ∃ t : Fin grid3.N, win3_2.index t = ![q0.val, 0])

section
variable (V : (c : Dev nD) → (b : Ref sig .tc) → Buf (Elt Ideal) ((c : Thread nD τ).loc b))

/-- What point t writes back is block t of the function of the whole arrays. -/
theorem flushed_eq (c : Dev nD) (t : Fin cfg3.N) :
    (dat3 (F := Ideal) V c).flushed 2 t = ((cfg3.win 2).blk t).view.read (Elt Ideal) (G (V c main_v59) (V c main_v60)) := by
  show (cfg3.win 2).cut (grid3.coords t) ((dat3 (F := Ideal) V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (ix2 p q) = G (V c main_v59) (V c main_v60) (((cfg3.win 2).blk t).view.emb (ix2 p q))
  have hP : win3_2.index t (0 : Fin 2) * 10000 + p.val < 100000 := by have := p.isLt; omega
  have hemb : ((cfg3.win 2).blk t).view.emb (ix2 p q) = ix2 (⟨win3_2.index t (0 : Fin 2) * 10000 + p.val, hP⟩ : Fin 100000) q := by
    funext a; apply Fin.ext
    match a with
    | ⟨0, _⟩ => show win3_2.index t (0 : Fin 2) * 10000 + 1 * p.val = win3_2.index t (0 : Fin 2) * 10000 + p.val; omega
    | ⟨1, _⟩ => show win3_2.index t (1 : Fin 2) * 64 + 1 * q.val = q.val; omega
  rw [hemb, G_ix2]
  refine (pay_ix2 (iblk3 V c 0 t) (iblk3 V c 1 t) p q).trans ?_
  have h0 : ((cfg3.win 0).blk t).view.emb (ix2 p q) = ix2 (⟨win3_2.index t (0 : Fin 2) * 10000 + p.val, hP⟩ : Fin 100000) q := by
    funext a; apply Fin.ext
    match a with
    | ⟨0, _⟩ => show win3_0.index t (0 : Fin 2) * 10000 + 1 * p.val = win3_2.index t (0 : Fin 2) * 10000 + p.val; omega
    | ⟨1, _⟩ => show win3_0.index t (1 : Fin 2) * 64 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  show FloatOps.maximumf (F := Ideal) (φ := .f32) (FloatOps.addf (V c main_v59 (((cfg3.win 0).blk t).view.emb (ix2 p q))) (V c main_v60 (((cfg3.win 1).blk t).view.emb (ix2 (0 : Fin 1) q)))) _ = _
  rw [h0, h1]

/-- An index of the output array is in point t's block iff its coordinates are in the block's ranges. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row r lies in the block of point r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the output array is that function of the arrays the region found. -/
theorem final (c : Dev nD) : (dat3 (F := Ideal) V c).arrAt 2 cfg3.N = G (V c main_v59) (V c main_v60) :=
  (dat3 (F := Ideal) V c).arrAt_eq_of_cover 2 (G (V c main_v59) (V c main_v60)) (fun t _ => flushed_eq V c t) cover

end

end Cert.KernelIdeal.BiasRelu2

end
-- ==== Proof.Head.lean ====
/-
  The last linear layer and the logistic function, block by block.

  The grid has ten points; point t takes rows 10000·t … 10000·t + 9999 of the hidden features, the whole 64 × 1
  weight column and the one bias entry, and writes the same rows of logistic(h · w + b): entry (p, 0) of a block is
  logistic(sum over k of h[10000·t + p, k] · w[k, 0] + b[0, 0]) (the rounding of the operands to bf16 is the identity
  on the extended reals), and the inner sum is entry (10000·t + p, 0) of the product of the whole arrays. The ten
  blocks tile the 100000 rows.
-/
import proofs.«179360_j41644002902519_1_alg».proof.Proof.Gen.KernelIdeal.Frame
import proofs.«179360_j41644002902519_1_alg».proof.ReferenceIdeal
import proofs.«179360_j41644002902519_1_alg».proof.Proof.LibDotRead
import Idealize.ShloMosaic.Lib.Pipeline.Value
import Idealize.ShloMosaic.Lib.ValueIdx
import Idealize.ShloMosaic.Lib.ValueLayout

set_option maxRecDepth 16384

noncomputable section

namespace Cert.KernelIdeal.Head

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable [Cert.ReferenceIdeal.Facts]

theorem hz : (![0, 0] : Fin 2 → Nat) = fun _ => 0 := funext fun a => by fin_cases a <;> rfl

/-- The product of the whole arrays, as the host computes it. -/
abbrev D (h : FVec Ideal S100000x64 .f32) (w : FVec Ideal S64x1 .f32) : FVec Ideal S100000x1 .f32 :=
  Host.dotGeneral (F := Ideal) (φ₁ := .f32) (φ₂ := .f32) Cert.ReferenceIdeal.dot_S100000x64_S64x1_S100000x1_1_0_0_1_n_n none h w

/-- Row by row: the logistic function of the product plus the bias entry. -/
def G (h : FVec Ideal S100000x64 .f32) (w : FVec Ideal S64x1 .f32) (b : FVec Ideal S1x1 .f32) : FVec Ideal S100000x1 .f32 :=
  fun i => FloatOps.logistic (F := Ideal) (φ := .f32) (FloatOps.addf (D h w i) (b (ix2 (0 : Fin 1) (⟨(i 1).val, (i 1).isLt⟩ : Fin 1))))

theorem G_ix2 (h : FVec Ideal S100000x64 .f32) (w : FVec Ideal S64x1 .f32) (b : FVec Ideal S1x1 .f32) (P : Fin 100000) (q : Fin 1) :
    G h w b (ix2 P q) = FloatOps.logistic (F := Ideal) (φ := .f32) (FloatOps.addf (D h w (ix2 P q)) (b (ix2 (0 : Fin 1) q))) := rfl

/-- Entry (P, q) of the whole product is the sum over k of h[P, k] · w[k, q]. -/
theorem D_ix2 (h : FVec Ideal S100000x64 .f32) (w : FVec Ideal S64x1 .f32) (P : Fin 100000) (q : Fin 1) :
    D h w (ix2 P q) = ∑ k : Fin 64, h (ix2 P k) * w (ix2 k q) :=
  MatmulRead.hostDot_ix2 (D := Cert.ReferenceIdeal.dot_S100000x64_S64x1_S100000x1_1_0_0_1_n_n) ⟨rfl, rfl, rfl, rfl, rfl, rfl⟩ rfl rfl none h w P q

/-- Entry (p, q) of the body's result. -/
theorem pay_ix2 (x0 : FVec Ideal S10000x64 .f32) (x1 : FVec Ideal S64x1 .f32) (x2 : FVec Ideal S1x1 .f32) (p : Fin 10000) (q : Fin 1) :
    k4_pay1 (F := Ideal) x0 x1 x2 (ix2 p q)
      = FloatOps.logistic (F := Ideal) (φ := .f32) (FloatOps.addf (∑ k : Fin 64, x0 (ix2 p k) * x1 (ix2 k q)) (x2 (ix2 (0 : Fin 1) q))) := by
  unfold k4_pay1
  show FloatOps.logistic (F := Ideal) (φ := .f32) (FloatOps.addf
      (FloatOps.matmul dot_S10000x64_S64x1_S10000x1_1_0_0_1_n_n none
        (truncf .bf16 (shapeCast S10000x64 x0 shapeCasts_S10000x64_S10000x64) bitsLt_bf16_f32) (truncf .bf16 x1 bitsLt_bf16_f32)
        (constant S10000x1 .f32 0x00000000#32) (ix2 p q))
      (broadcastTo S10000x1 (shapeCast S1x1 x2 shapeCasts_S1x1_S1x1) broadcasts_S1x1_S10000x1 (ix2 p q))) = _
  rw [shapeCast_self, shapeCast_self, broadcastTo_1b_ab_apply]
  refine congrArg (fun z => FloatOps.logistic (F := Ideal) (φ := .f32) (FloatOps.addf z (x2 (ix2 (0 : Fin 1) q)))) ?_
  exact MatmulRead.matmul_zero_ix2 (D := dot_S10000x64_S64x1_S10000x1_1_0_0_1_n_n) ⟨rfl, rfl, rfl, rfl, rfl, rfl⟩ rfl rfl none
    (truncf .bf16 x0 bitsLt_bf16_f32) (truncf .bf16 x1 bitsLt_bf16_f32) p q

/-- The printed index maps over the grid. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) ≤ 9
    ∧ win4_3.index t (1 : Fin 2) = 0 :=
  (by decide +kernel : ∀ t : Fin grid4.N, _)

/-- Every row block is some point's. -/
theorem idx_onto : ∀ (q0 : Fin 10), ∃ t : Fin cfg4.N, win4_3.index t = ![q0.val, 0] :=
  (by decide +kernel : ∀ (q0 : Fin 10), ∃ t : Fin grid4.N, win4_3.index t = ![q0.val, 0])

section
variable (V : (c : Dev nD) → (b : Ref sig .tc) → Buf (Elt Ideal) ((c : Thread nD τ).loc b))

/-- What point t writes back is block t of the function of the whole arrays. -/
theorem flushed_eq (c : Dev nD) (t : Fin cfg4.N) :
    (dat4 (F := Ideal) V c).flushed 3 t = ((cfg4.win 3).blk t).view.read (Elt Ideal) (G (V c main_v61) (V c main_arg6) (V c main_v62)) := by
  show (cfg4.win 3).cut (grid4.coords t) ((dat4 (F := Ideal) V c).after 3 t) = _
  rw [after4_3]
  unfold out4_3
  rw [View.canon_unit_zero hz]
  simp only [View.ld_unit_zero (S := S10000x64) hz, View.ld_unit_zero (S := S64x1) hz, View.ld_unit_zero (S := S1x1) hz]
  obtain ⟨e0, e1, e2, e3, e4, e5, e6, e7⟩ := idx_facts t
  funext j
  obtain ⟨p, q, rfl⟩ : ∃ (p : Fin 10000) (q : Fin 1), j = ix2 p q := ⟨j 0, j 1, eq_ix2 j⟩
  show k4_pay1 (F := Ideal) (iblk4 V c 0 t) (iblk4 V c 1 t) (iblk4 V c 2 t) (ix2 p q) = G (V c main_v61) (V c main_arg6) (V c main_v62) (((cfg4.win 3).blk t).view.emb (ix2 p q))
  have hP : win4_3.index t (0 : Fin 2) * 10000 + p.val < 100000 := by have := p.isLt; omega
  have hemb : ((cfg4.win 3).blk t).view.emb (ix2 p q) = ix2 (⟨win4_3.index t (0 : Fin 2) * 10000 + p.val, hP⟩ : Fin 100000) q := by
    funext a; apply Fin.ext
    match a with
    | ⟨0, _⟩ => show win4_3.index t (0 : Fin 2) * 10000 + 1 * p.val = win4_3.index t (0 : Fin 2) * 10000 + p.val; omega
    | ⟨1, _⟩ => show win4_3.index t (1 : Fin 2) * 1 + 1 * q.val = q.val; omega
  rw [hemb, G_ix2, D_ix2]
  refine (pay_ix2 (iblk4 V c 0 t) (iblk4 V c 1 t) (iblk4 V c 2 t) p q).trans ?_
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 1 + 1 * q.val = q.val; omega
  have hb : iblk4 V c 2 t (ix2 (0 : Fin 1) q) = V c main_v62 (ix2 (0 : Fin 1) q) := by
    show V c main_v62 (((cfg4.win 2).blk t).view.emb (ix2 (0 : Fin 1) q)) = _
    rw [h2]
  rw [hb]
  refine congrArg (fun z => FloatOps.logistic (F := Ideal) (φ := .f32) (FloatOps.addf z (V c main_v62 (ix2 (0 : Fin 1) q)))) ?_
  refine Finset.sum_congr rfl fun k _ => ?_
  have h0 : ((cfg4.win 0).blk t).view.emb (ix2 p k) = ix2 (⟨win4_3.index t (0 : Fin 2) * 10000 + p.val, hP⟩ : Fin 100000) k := by
    funext a; apply Fin.ext
    match a with
    | ⟨0, _⟩ => show win4_0.index t (0 : Fin 2) * 10000 + 1 * p.val = win4_3.index t (0 : Fin 2) * 10000 + p.val; omega
    | ⟨1, _⟩ => show win4_0.index t (1 : Fin 2) * 64 + 1 * k.val = k.val; omega
  have h1 : ((cfg4.win 1).blk t).view.emb (ix2 k q) = ix2 k q := by
    funext a; apply Fin.ext
    match a with
    | ⟨0, _⟩ => show win4_1.index t (0 : Fin 2) * 64 + 1 * k.val = k.val; omega
    | ⟨1, _⟩ => show win4_1.index t (1 : Fin 2) * 1 + 1 * q.val = q.val; omega
  have hx : iblk4 V c 0 t (ix2 p k) = V c main_v61 (ix2 (⟨win4_3.index t (0 : Fin 2) * 10000 + p.val, hP⟩ : Fin 100000) k) := by
    show V c main_v61 (((cfg4.win 0).blk t).view.emb (ix2 p k)) = _
    rw [h0]
  have hw : iblk4 V c 1 t (ix2 k q) = V c main_arg6 (ix2 k q) := by
    show V c main_arg6 (((cfg4.win 1).blk t).view.emb (ix2 k q)) = _
    rw [h1]
  rw [hx, hw]

/-- An index of the output array is in point t's block iff its coordinates are in the block's ranges. -/
theorem mem_blk (t : Fin cfg4.N) (i : S100000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v63).slice (win4_3.rect t)).set ↔ _
  rw [View.set_slice_whole, Rect.mem_set_unit]
  exact Iff.rfl

/-- Row r lies in the block of point r / 10000. -/
theorem cover (i : S100000x1.Idx) : ∃ t : Fin cfg4.N, (cfg4.win 3).flush t = true ∧ i ∈ ((cfg4.win 3).blk t).view.set := by
  have hi0 : (i 0).val < 100000 := (i 0).isLt
  have hi1 : (i 1).val < 1 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 1 ≤ (i 1).val ∧ (i 1).val < win4_3.index t (1 : Fin 2) * 1 + 1; omega

/-- After the region the output array is that function of the arrays the region found. -/
theorem final (c : Dev nD) : (dat4 (F := Ideal) V c).arrAt 3 cfg4.N = G (V c main_v61) (V c main_arg6) (V c main_v62) :=
  (dat4 (F := Ideal) V c).arrAt_eq_of_cover 3 (G (V c main_v61) (V c main_arg6) (V c main_v62)) (fun t _ => flushed_eq V c t) cover

end

end Cert.KernelIdeal.Head

end
-- ==== Proof.LibHostLine.lean ====
/-
  A fact about the operations of a called function in a straight line of host operations.

  Such an operation carries its operands from their buffers' types to the values' types and its result back, along the
  equation between the two types. Carrying a value to a buffer's own type and back is the identity, whatever the buffer:
  with it the chain of intermediate values of a called function reads as the plain composition of its operations.
-/
import Idealize.ShloMosaic.Lib.StableHlo.Run

noncomputable section

namespace Cert.LibHostLine

open Idealize.ShloMosaic Idealize.ShloMosaic.StableHlo

variable {sig : RefSig} {Val : EltTy → Type}

/-- Contents carried to a buffer's own type and back are themselves. -/
theorem ofBuf_toBuf {T : BufTy} (x : TRef sig T) (v : T.Contents Val) : x.ofBuf (x.toBuf v) = v := by
  obtain ⟨r, rfl, _, _⟩ := x; rfl

end Cert.LibHostLine

end
-- ==== Proof.Edges.lean ====
/-
  What the kernel program's host operations leave in the buffers that carry the graph: the source row of every
  edge (with the self loops appended), the target row, and the normalisation coefficient
  d[row]^(-1/2) · d[col]^(-1/2) (zero where the in-degree d is zero). The program computes them once, before the
  first region, and reads them again before the third; no region and no later host operation writes them, so at
  every later segment boundary they are what the first stretch of host operations left, and that is the same
  composition of operations of the edge array that the reference spells (twice: once for each layer).
  Likewise each argument array is, at every boundary, what it was at launch.
-/
import proofs.«179360_j41644002902519_1_alg».proof.Proof.Gen.KernelIdeal.Frame
import proofs.«179360_j41644002902519_1_alg».proof.Proof.RefRead
import proofs.«179360_j41644002902519_1_alg».proof.Proof.LibHostLine
import Idealize.ShloMosaic.Lib.StableHlo.Run

set_option maxRecDepth 16384

noncomputable section

namespace Cert.KernelIdeal.Edges

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators
open Idealize.ShloMosaic.StableHlo
open Cert.ReferenceIdeal.ReadP

variable (m : (ℓ : Loc nD τ sig) → Buf (Elt Ideal) ℓ) (ρ : Dev nD → PrngReg) (c : Dev nD)

/-- The selection "the inverse square root where the degree is positive, else zero", from whatever contents the
    buffers of the mask, the inverse square root and the zero hold. -/
theorem where_stage (F1 : Valuation τ sig (Elt Ideal)) :
    StableHlo.after hostOps0_1 F1 (Proc.devRef .tc main_v14) =
      select (F1 (Proc.devRef .tc main_v12)) (F1 (Proc.devRef .tc main_v13))
        (broadcastInDim S100000 ![] bcast_S_S100000 (id (F1 (Proc.devRef .tc main_cst_2)))) := by
  after_results_simp
  simp only [Cert.LibHostLine.ofBuf_toBuf]
  rfl

/-! ## The host operations before the first region, read stage by stage, against the reference's first spelling (its first layer) -/

/-- After the first part: rows, columns, the degree's positivity mask, its inverse square root, the zero. -/
theorem W1_v5 : W1 m ρ c (Proc.devRef .tc main_v5) = val_main_v5 (F := Ideal) (m ((c : Thread nD τ).loc main_arg1)) := by
  show StableHlo.after hostOps0 (W0 m ρ c) (Proc.devRef .tc main_v5) = _
  after_results_simp <;> rfl

theorem W1_v6 : W1 m ρ c (Proc.devRef .tc main_v6) = val_main_v6 (F := Ideal) (m ((c : Thread nD τ).loc main_arg1)) := by
  show StableHlo.after hostOps0 (W0 m ρ c) (Proc.devRef .tc main_v6) = _
  after_results_simp <;> rfl

theorem W1_v12 : W1 m ρ c (Proc.devRef .tc main_v12) = val_main_v12 (F := Ideal) (m ((c : Thread nD τ).loc main_arg1)) := by
  show StableHlo.after hostOps0 (W0 m ρ c) (Proc.devRef .tc main_v12) = _
  after_results_simp <;> rfl

theorem W1_v13 : W1 m ρ c (Proc.devRef .tc main_v13) = val_main_v13 (F := Ideal) (m ((c : Thread nD τ).loc main_arg1)) := by
  show StableHlo.after hostOps0 (W0 m ρ c) (Proc.devRef .tc main_v13) = _
  after_results_simp <;> rfl

theorem W1_cst_2 : W1 m ρ c (Proc.devRef .tc main_cst_2) = val_main_cst_2 (F := Ideal) := by
  show StableHlo.after hostOps0 (W0 m ρ c) (Proc.devRef .tc main_cst_2) = _
  after_results_simp <;> rfl

/-- After the second part: the inverse square root where the degree is positive, zero elsewhere. -/
theorem W2_v14 : W2 m ρ c (Proc.devRef .tc main_v14) = val_main_v14 (F := Ideal) (m ((c : Thread nD τ).loc main_arg1)) := by
  have h12 := W1_v12 m ρ c
  have h13 := W1_v13 m ρ c
  have hc := W1_cst_2 m ρ c
  refine (where_stage (W1 m ρ c)).trans ?_
  rw [h12, h13, hc]
  rfl

theorem W2_v5 : W2 m ρ c (Proc.devRef .tc main_v5) = val_main_v5 (F := Ideal) (m ((c : Thread nD τ).loc main_arg1)) := by
  have h := W1_v5 m ρ c
  show StableHlo.after hostOps0_1 (W1 m ρ c) (Proc.devRef .tc main_v5) = _
  generalize W1 m ρ c = F1 at h ⊢
  after_results_simp
  exact h

theorem W2_v6 : W2 m ρ c (Proc.devRef .tc main_v6) = val_main_v6 (F := Ideal) (m ((c : Thread nD τ).loc main_arg1)) := by
  have h := W1_v6 m ρ c
  show StableHlo.after hostOps0_1 (W1 m ρ c) (Proc.devRef .tc main_v6) = _
  generalize W1 m ρ c = F1 at h ⊢
  after_results_simp
  exact h

/-- After the third part: the coefficient of every edge, and the rows and columns still in place. -/
theorem W3_v29 : W3 m ρ c (Proc.devRef .tc main_v29) = val_main_v29 (F := Ideal) (m ((c : Thread nD τ).loc main_arg1)) := by
  have h5 := W2_v5 m ρ c
  have h6 := W2_v6 m ρ c
  have h14 := W2_v14 m ρ c
  show StableHlo.after hostOps0_2 (W2 m ρ c) (Proc.devRef .tc main_v29) = _
  generalize W2 m ρ c = F2 at h5 h6 h14 ⊢
  after_results_simp
  rw [h5, h6, h14]
  rfl

theorem W3_v5 : W3 m ρ c (Proc.devRef .tc main_v5) = val_main_v5 (F := Ideal) (m ((c : Thread nD τ).loc main_arg1)) := by
  have h := W2_v5 m ρ c
  show StableHlo.after hostOps0_2 (W2 m ρ c) (Proc.devRef .tc main_v5) = _
  generalize W2 m ρ c = F2 at h ⊢
  after_results_simp
  exact h

theorem W3_v6 : W3 m ρ c (Proc.devRef .tc main_v6) = val_main_v6 (F := Ideal) (m ((c : Thread nD τ).loc main_arg1)) := by
  have h := W2_v6 m ρ c
  show StableHlo.after hostOps0_2 (W2 m ρ c) (Proc.devRef .tc main_v6) = _
  generalize W2 m ρ c = F2 at h ⊢
  after_results_simp
  exact h

/-! ## The host operations before the first region, read stage by stage, against the reference's second spelling (its second layer recomputes the same quantities) -/

/-- After the first part: rows, columns, the degree's positivity mask, its inverse square root, the zero. -/
theorem W1_v5' : W1 m ρ c (Proc.devRef .tc main_v5) = val_main_v53 (F := Ideal) (m ((c : Thread nD τ).loc main_arg1)) := by
  show StableHlo.after hostOps0 (W0 m ρ c) (Proc.devRef .tc main_v5) = _
  after_results_simp <;> rfl

theorem W1_v6' : W1 m ρ c (Proc.devRef .tc main_v6) = val_main_v54 (F := Ideal) (m ((c : Thread nD τ).loc main_arg1)) := by
  show StableHlo.after hostOps0 (W0 m ρ c) (Proc.devRef .tc main_v6) = _
  after_results_simp <;> rfl

theorem W1_v12' : W1 m ρ c (Proc.devRef .tc main_v12) = val_main_v60 (F := Ideal) (m ((c : Thread nD τ).loc main_arg1)) := by
  show StableHlo.after hostOps0 (W0 m ρ c) (Proc.devRef .tc main_v12) = _
  after_results_simp <;> rfl

theorem W1_v13' : W1 m ρ c (Proc.devRef .tc main_v13) = val_main_v61 (F := Ideal) (m ((c : Thread nD τ).loc main_arg1)) := by
  show StableHlo.after hostOps0 (W0 m ρ c) (Proc.devRef .tc main_v13) = _
  after_results_simp <;> rfl

theorem W1_cst_2' : W1 m ρ c (Proc.devRef .tc main_cst_2) = val_main_cst_12 (F := Ideal) := by
  show StableHlo.after hostOps0 (W0 m ρ c) (Proc.devRef .tc main_cst_2) = _
  after_results_simp <;> rfl

/-- After the second part: the inverse square root where the degree is positive, zero elsewhere. -/
theorem W2_v14' : W2 m ρ c (Proc.devRef .tc main_v14) = val_main_v62 (F := Ideal) (m ((c : Thread nD τ).loc main_arg1)) := by
  have h12 := W1_v12' m ρ c
  have h13 := W1_v13' m ρ c
  have hc := W1_cst_2' m ρ c
  refine (where_stage (W1 m ρ c)).trans ?_
  rw [h12, h13, hc]
  rfl

theorem W2_v5' : W2 m ρ c (Proc.devRef .tc main_v5) = val_main_v53 (F := Ideal) (m ((c : Thread nD τ).loc main_arg1)) := by
  have h := W1_v5' m ρ c
  show StableHlo.after hostOps0_1 (W1 m ρ c) (Proc.devRef .tc main_v5) = _
  generalize W1 m ρ c = F1 at h ⊢
  after_results_simp
  exact h

theorem W2_v6' : W2 m ρ c (Proc.devRef .tc main_v6) = val_main_v54 (F := Ideal) (m ((c : Thread nD τ).loc main_arg1)) := by
  have h := W1_v6' m ρ c
  show StableHlo.after hostOps0_1 (W1 m ρ c) (Proc.devRef .tc main_v6) = _
  generalize W1 m ρ c = F1 at h ⊢
  after_results_simp
  exact h

/-- After the third part: the coefficient of every edge, and the rows and columns still in place. -/
theorem W3_v29' : W3 m ρ c (Proc.devRef .tc main_v29) = val_main_v77 (F := Ideal) (m ((c : Thread nD τ).loc main_arg1)) := by
  have h5 := W2_v5' m ρ c
  have h6 := W2_v6' m ρ c
  have h14 := W2_v14' m ρ c
  show StableHlo.after hostOps0_2 (W2 m ρ c) (Proc.devRef .tc main_v29) = _
  generalize W2 m ρ c = F2 at h5 h6 h14 ⊢
  after_results_simp
  rw [h5, h6, h14]
  rfl

theorem W3_v5' : W3 m ρ c (Proc.devRef .tc main_v5) = val_main_v53 (F := Ideal) (m ((c : Thread nD τ).loc main_arg1)) := by
  have h := W2_v5' m ρ c
  show StableHlo.after hostOps0_2 (W2 m ρ c) (Proc.devRef .tc main_v5) = _
  generalize W2 m ρ c = F2 at h ⊢
  after_results_simp
  exact h

theorem W3_v6' : W3 m ρ c (Proc.devRef .tc main_v6) = val_main_v54 (F := Ideal) (m ((c : Thread nD τ).loc main_arg1)) := by
  have h := W2_v6' m ρ c
  show StableHlo.after hostOps0_2 (W2 m ρ c) (Proc.devRef .tc main_v6) = _
  generalize W2 m ρ c = F2 at h ⊢
  after_results_simp
  exact h

end Cert.KernelIdeal.Edges

end
-- ==== Proof.Kept.lean ====
/-
  Buffers that nothing after the first stretch of host operations writes keep their contents to every later
  segment boundary: the argument arrays (as launched), and the rows, columns and coefficients of the edges (as
  the first stretch left them). A region leaves every buffer that is none of its windows' arrays as it found it,
  and a host operation leaves every buffer but its own result.
-/
import proofs.«179360_j41644002902519_1_alg».proof.Proof.Gen.KernelIdeal.Frame
import Idealize.ShloMosaic.Lib.StableHlo.Run
import Idealize.ShloMosaic.Lib.ValueIdx

set_option maxRecDepth 16384

noncomputable section

namespace Cert.KernelIdeal.Kept

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators
open Idealize.ShloMosaic.StableHlo

variable (m : (ℓ : Loc nD τ sig) → Buf (Elt Ideal) ℓ) (ρ : Dev nD → PrngReg) (c : Dev nD)

/-! ## The arguments through the first stretch -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Down the later boundaries -/

theorem K4_arg3 : W4 m ρ c (Proc.devRef .tc main_arg3) = m ((c : Thread nD τ).loc main_arg3) :=
  ((W4_of_ne m ρ c main_arg3 (by decide)).trans (W3_arg3 m ρ c))

theorem host5_arg4 : W5 m ρ c (Proc.devRef .tc main_arg4) = W4 m ρ c (Proc.devRef .tc main_arg4) := by
  show StableHlo.after hostOps1 (W4 m ρ c) (Proc.devRef .tc main_arg4) = _
  after_results_simp

theorem K6_arg4 : W6 m ρ c (Proc.devRef .tc main_arg4) = m ((c : Thread nD τ).loc main_arg4) :=
  ((((W6_of_ne m ρ c main_arg4 (by decide)).trans (host5_arg4 m ρ c)).trans (W4_of_ne m ρ c main_arg4 (by decide))).trans (W3_arg4 m ρ c))

theorem host5_arg5 : W5 m ρ c (Proc.devRef .tc main_arg5) = W4 m ρ c (Proc.devRef .tc main_arg5) := by
  show StableHlo.after hostOps1 (W4 m ρ c) (Proc.devRef .tc main_arg5) = _
  after_results_simp

theorem K7_arg5 : W7 m ρ c (Proc.devRef .tc main_arg5) = m ((c : Thread nD τ).loc main_arg5) :=
  (((((W7_of_ne m ρ c main_arg5 (by decide)).trans (W6_of_ne m ρ c main_arg5 (by decide))).trans (host5_arg5 m ρ c)).trans (W4_of_ne m ρ c main_arg5 (by decide))).trans (W3_arg5 m ρ c))

theorem host8_arg7 : W8 m ρ c (Proc.devRef .tc main_arg7) = W7 m ρ c (Proc.devRef .tc main_arg7) := by
  show StableHlo.after hostOps3 (W7 m ρ c) (Proc.devRef .tc main_arg7) = _
  after_results_simp

theorem host5_arg7 : W5 m ρ c (Proc.devRef .tc main_arg7) = W4 m ρ c (Proc.devRef .tc main_arg7) := by
  show StableHlo.after hostOps1 (W4 m ρ c) (Proc.devRef .tc main_arg7) = _
  after_results_simp

theorem K9_arg7 : W9 m ρ c (Proc.devRef .tc main_arg7) = m ((c : Thread nD τ).loc main_arg7) :=
  (((((((W9_of_ne m ρ c main_arg7 (by decide)).trans (host8_arg7 m ρ c)).trans (W7_of_ne m ρ c main_arg7 (by decide))).trans (W6_of_ne m ρ c main_arg7 (by decide))).trans (host5_arg7 m ρ c)).trans (W4_of_ne m ρ c main_arg7 (by decide))).trans (W3_arg7 m ρ c))

theorem host10_arg6 : W10 m ρ c (Proc.devRef .tc main_arg6) = W9 m ρ c (Proc.devRef .tc main_arg6) := by
  show StableHlo.after hostOps4 (W9 m ρ c) (Proc.devRef .tc main_arg6) = _
  after_results_simp

theorem host8_arg6 : W8 m ρ c (Proc.devRef .tc main_arg6) = W7 m ρ c (Proc.devRef .tc main_arg6) := by
  show StableHlo.after hostOps3 (W7 m ρ c) (Proc.devRef .tc main_arg6) = _
  after_results_simp

theorem host5_arg6 : W5 m ρ c (Proc.devRef .tc main_arg6) = W4 m ρ c (Proc.devRef .tc main_arg6) := by
  show StableHlo.after hostOps1 (W4 m ρ c) (Proc.devRef .tc main_arg6) = _
  after_results_simp

theorem K10_arg6 : W10 m ρ c (Proc.devRef .tc main_arg6) = m ((c : Thread nD τ).loc main_arg6) :=
  ((((((((host10_arg6 m ρ c).trans (W9_of_ne m ρ c main_arg6 (by decide))).trans (host8_arg6 m ρ c)).trans (W7_of_ne m ρ c main_arg6 (by decide))).trans (W6_of_ne m ρ c main_arg6 (by decide))).trans (host5_arg6 m ρ c)).trans (W4_of_ne m ρ c main_arg6 (by decide))).trans (W3_arg6 m ρ c))

theorem K4_v5 : W4 m ρ c (Proc.devRef .tc main_v5) = W3 m ρ c (Proc.devRef .tc main_v5) :=
  (W4_of_ne m ρ c main_v5 (by decide))

theorem host5_v5 : W5 m ρ c (Proc.devRef .tc main_v5) = W4 m ρ c (Proc.devRef .tc main_v5) := by
  show StableHlo.after hostOps1 (W4 m ρ c) (Proc.devRef .tc main_v5) = _
  after_results_simp

theorem K7_v5 : W7 m ρ c (Proc.devRef .tc main_v5) = W3 m ρ c (Proc.devRef .tc main_v5) :=
  ((((W7_of_ne m ρ c main_v5 (by decide)).trans (W6_of_ne m ρ c main_v5 (by decide))).trans (host5_v5 m ρ c)).trans (W4_of_ne m ρ c main_v5 (by decide)))

theorem K4_v6 : W4 m ρ c (Proc.devRef .tc main_v6) = W3 m ρ c (Proc.devRef .tc main_v6) :=
  (W4_of_ne m ρ c main_v6 (by decide))

theorem host5_v6 : W5 m ρ c (Proc.devRef .tc main_v6) = W4 m ρ c (Proc.devRef .tc main_v6) := by
  show StableHlo.after hostOps1 (W4 m ρ c) (Proc.devRef .tc main_v6) = _
  after_results_simp

theorem K7_v6 : W7 m ρ c (Proc.devRef .tc main_v6) = W3 m ρ c (Proc.devRef .tc main_v6) :=
  ((((W7_of_ne m ρ c main_v6 (by decide)).trans (W6_of_ne m ρ c main_v6 (by decide))).trans (host5_v6 m ρ c)).trans (W4_of_ne m ρ c main_v6 (by decide)))

theorem K4_v29 : W4 m ρ c (Proc.devRef .tc main_v29) = W3 m ρ c (Proc.devRef .tc main_v29) :=
  (W4_of_ne m ρ c main_v29 (by decide))

theorem host5_v29 : W5 m ρ c (Proc.devRef .tc main_v29) = W4 m ρ c (Proc.devRef .tc main_v29) := by
  show StableHlo.after hostOps1 (W4 m ρ c) (Proc.devRef .tc main_v29) = _
  after_results_simp

theorem K7_v29 : W7 m ρ c (Proc.devRef .tc main_v29) = W3 m ρ c (Proc.devRef .tc main_v29) :=
  ((((W7_of_ne m ρ c main_v29 (by decide)).trans (W6_of_ne m ρ c main_v29 (by decide))).trans (host5_v29 m ρ c)).trans (W4_of_ne m ρ c main_v29 (by decide)))

end Cert.KernelIdeal.Kept

end
-- ==== Proof.Bridge.lean ====
/-
  The kernel program's result, as a function of its arguments.

  Segment by segment: the first region leaves x · W1; the host operations between gather its rows along the
  edges, scale them by the edge coefficients and add them up per target row; the second region adds the bias and
  cuts off at zero; the third leaves that times W2; the same aggregation again; the fourth region the second bias
  and cut-off; the fifth the last product, its bias and the logistic function. At each boundary the buffer just
  written is the reference's intermediate value of the same name: the regions' products are the host's products
  of the whole arrays, the host operations between are the reference's own, the bias broadcasts agree index by
  index, and 1 / (1 + exp(-z)) is the logistic function on the extended reals.
-/
import proofs.«179360_j41644002902519_1_alg».proof.Proof.Gen.KernelIdeal.Frame
import proofs.«179360_j41644002902519_1_alg».proof.Proof.RefRead
import proofs.«179360_j41644002902519_1_alg».proof.Proof.Dense1
import proofs.«179360_j41644002902519_1_alg».proof.Proof.Dense2
import proofs.«179360_j41644002902519_1_alg».proof.Proof.BiasRelu1
import proofs.«179360_j41644002902519_1_alg».proof.Proof.BiasRelu2
import proofs.«179360_j41644002902519_1_alg».proof.Proof.Head
import proofs.«179360_j41644002902519_1_alg».proof.Proof.Edges
import proofs.«179360_j41644002902519_1_alg».proof.Proof.Kept
import Idealize.ShloMosaic.Lib.StableHlo.Run
import Idealize.ShloMosaic.Lib.ValueLayout
import Idealize.ShloMosaic.Lib.IdealHost

set_option maxRecDepth 16384

noncomputable section

namespace Cert.KernelIdeal.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators
open Idealize.ShloMosaic.StableHlo
open Cert.ReferenceIdeal.ReadP

variable (m : (ℓ : Loc nD τ sig) → Buf (Elt Ideal) ℓ) (ρ : Dev nD → PrngReg) (c : Dev nD)

/-! ## Index bookkeeping for the bias broadcasts -/

theorem idx_bias1 (P : Fin 100000) (q : Fin 64) : idx_main_v44 (idx_main_v45 (ix2 P q)) = ix1 q :=
  funext fun a => Fin.ext (by match a with | ⟨0, _⟩ => rfl)

theorem idx_bias2 (P : Fin 100000) (q : Fin 64) : idx_main_v92 (idx_main_v93 (ix2 P q)) = ix1 q :=
  funext fun a => Fin.ext (by match a with | ⟨0, _⟩ => rfl)

theorem idx_bias3 (P : Fin 100000) (q : Fin 1) : idx_main_v97 (idx_main_v98 (ix2 P q)) = ix1 q :=
  funext fun a => Fin.ext (by
    match a with
    | ⟨0, _⟩ => show 0 = q.val; omega)

/-- The logistic function, spelt with a quotient, a sum, an exponential and a negation. -/
theorem logistic_spelt (z : Ideal .f32) :
    FloatOps.logistic (F := Ideal) (φ := .f32) z
      = FloatOps.hostDivf (F := Ideal) (φ := .f32) (FloatOps.ofBits .f32 0x3F800000#32)
          (FloatOps.addf (F := Ideal) (φ := .f32) (FloatOps.ofBits .f32 0x3F800000#32)
            (FloatOps.hostUnary (F := Ideal) (φ := .f32) .exp (FloatOps.hostNegf (F := Ideal) (φ := .f32) z))) := by
  show _ = FloatOps.hostDivf (F := Ideal) (φ := .f32) (Ideal.ofBits .f32 0x3F800000#32)
          (FloatOps.addf (F := Ideal) (φ := .f32) (Ideal.ofBits .f32 0x3F800000#32) _)
  rw [Ideal.ofBits_one_f32]
  rfl

/-! ## The first layer -/

/-- After the first region: x · W1. -/
theorem h30 : W4 m ρ c (Proc.devRef .tc main_v30) = val_main_v30 (F := Ideal) (m ((c : Thread nD τ).loc main_arg0)) (m ((c : Thread nD τ).loc main_arg2)) := by
  refine (W4_arr m ρ c 2).trans ((Dense1.final (V3 m ρ) c).trans ?_)
  show Dense1.G (W3 m ρ c (Proc.devRef .tc main_arg0)) (W3 m ρ c (Proc.devRef .tc main_arg2)) = _
  rw [Kept.W3_arg0, Kept.W3_arg2]
  rfl

/-- After the host operations that follow: the messages aggregated per target row. -/
theorem h43 : W5 m ρ c (Proc.devRef .tc main_v43) = val_main_v43 (F := Ideal) (m ((c : Thread nD τ).loc main_arg0)) (m ((c : Thread nD τ).loc main_arg1)) (m ((c : Thread nD τ).loc main_arg2)) := by
  have e30 := h30 m ρ c
  have e29 := (Kept.K4_v29 m ρ c).trans (Edges.W3_v29 m ρ c)
  have e5 := (Kept.K4_v5 m ρ c).trans (Edges.W3_v5 m ρ c)
  have e6 := (Kept.K4_v6 m ρ c).trans (Edges.W3_v6 m ρ c)
  show StableHlo.after hostOps1 (W4 m ρ c) (Proc.devRef .tc main_v43) = _
  generalize W4 m ρ c = F4 at e30 e29 e5 e6 ⊢
  after_results_simp
  rw [e30, e29, e5, e6]
  rfl

/-- … and the bias as one row. -/
theorem h44 : W5 m ρ c (Proc.devRef .tc main_v44) = shapeCast S1x64 (m ((c : Thread nD τ).loc main_arg3)) shapeCasts_S64_S1x64 := by
  have e := Kept.K4_arg3 m ρ c
  show StableHlo.after hostOps1 (W4 m ρ c) (Proc.devRef .tc main_v44) = _
  generalize W4 m ρ c = F4 at e ⊢
  after_results_simp
  rw [e]
  rfl

/-- After the second region: the first layer's output. -/
theorem h45 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((BiasRelu1.final (V5 m ρ) c).trans ?_)
  show BiasRelu1.G (W5 m ρ c (Proc.devRef .tc main_v43)) (W5 m ρ c (Proc.devRef .tc main_v44)) = _
  rw [h43, h44]
  funext i
  obtain ⟨P, q, rfl⟩ : ∃ (P : Fin 100000) (q : Fin 64), i = ix2 P q := ⟨i 0, i 1, eq_ix2 i⟩
  rw [BiasRelu1.G_ix2, val_main_v47_apply, val_main_v46_apply, val_main_v45_apply, val_main_v44_apply,
    val_main_call1_v0_apply, val_main_call1_cst_apply, idx_bias1, shapeCast_a_1a_apply]

/-! ## The second layer -/

/-- After the third region: h · W2. -/
theorem h46 : W7 m ρ c (Proc.devRef .tc main_v46) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Dense2.final (V6 m ρ) c).trans ?_)
  show Dense2.G (W6 m ρ c (Proc.devRef .tc main_v45)) (W6 m ρ c (Proc.devRef .tc main_arg4)) = _
  rw [h45, Kept.K6_arg4]
  rfl

theorem h59 : W8 m ρ c (Proc.devRef .tc main_v59) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e46 := h46 m ρ c
  have e29 := (Kept.K7_v29 m ρ c).trans (Edges.W3_v29' m ρ c)
  have e5 := (Kept.K7_v5 m ρ c).trans (Edges.W3_v5' m ρ c)
  have e6 := (Kept.K7_v6 m ρ c).trans (Edges.W3_v6' m ρ c)
  show StableHlo.after hostOps3 (W7 m ρ c) (Proc.devRef .tc main_v59) = _
  generalize W7 m ρ c = F7 at e46 e29 e5 e6 ⊢
  after_results_simp
  rw [e46, e29, e5, e6]
  rfl

theorem h60 : W8 m ρ c (Proc.devRef .tc main_v60) = shapeCast S1x64 (m ((c : Thread nD τ).loc main_arg5)) shapeCasts_S64_S1x64 := by
  have e := Kept.K7_arg5 m ρ c
  show StableHlo.after hostOps3 (W7 m ρ c) (Proc.devRef .tc main_v60) = _
  generalize W7 m ρ c = F7 at e ⊢
  after_results_simp
  rw [e]
  rfl

/-- After the fourth region: the second layer's output. -/
theorem h61 : W9 m ρ c (Proc.devRef .tc main_v61) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((BiasRelu2.final (V8 m ρ) c).trans ?_)
  show BiasRelu2.G (W8 m ρ c (Proc.devRef .tc main_v59)) (W8 m ρ c (Proc.devRef .tc main_v60)) = _
  rw [h59, h60]
  funext i
  obtain ⟨P, q, rfl⟩ : ∃ (P : Fin 100000) (q : Fin 64), i = ix2 P q := ⟨i 0, i 1, eq_ix2 i⟩
  rw [BiasRelu2.G_ix2, val_main_v95_apply, val_main_v94_apply, val_main_v93_apply, val_main_v92_apply,
    val_main_call3_v0_apply, val_main_call3_cst_apply, idx_bias2, shapeCast_a_1a_apply]

/-! ## The last layer -/

theorem h61' : W10 m ρ c (Proc.devRef .tc main_v61) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e := h61 m ρ c
  show StableHlo.after hostOps4 (W9 m ρ c) (Proc.devRef .tc main_v61) = _
  generalize W9 m ρ c = F9 at e ⊢
  after_results_simp
  exact e

theorem h62 : W10 m ρ c (Proc.devRef .tc main_v62) = shapeCast S1x1 (m ((c : Thread nD τ).loc main_arg7)) shapeCasts_S1_S1x1 := by
  have e := Kept.K9_arg7 m ρ c
  show StableHlo.after hostOps4 (W9 m ρ c) (Proc.devRef .tc main_v62) = _
  generalize W9 m ρ c = F9 at e ⊢
  after_results_simp
  rw [e]
  rfl

/-- After the fifth region: the program's result is the reference's. -/
theorem result : W11 m ρ c (Proc.devRef .tc main_v63) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ((Head.final (V10 m ρ) c).trans ?_)
  show Head.G (W10 m ρ c (Proc.devRef .tc main_v61)) (W10 m ρ c (Proc.devRef .tc main_arg6)) (W10 m ρ c (Proc.devRef .tc main_v62)) = _
  rw [h61', Kept.K10_arg6, h62]
  funext i
  obtain ⟨P, q, rfl⟩ : ∃ (P : Fin 100000) (q : Fin 1), i = ix2 P q := ⟨i 0, i 1, eq_ix2 i⟩
  rw [Head.G_ix2, val_main_v105_apply, val_main_v104_apply, val_main_cst_21_apply, val_main_v103_apply, val_main_v102_apply,
    val_main_cst_20_apply, val_main_v101_apply, val_main_v100_apply, val_main_v99_apply, val_main_v98_apply, val_main_v97_apply,
    idx_bias3, shapeCast_a_1a_apply, logistic_spelt]
  rfl

end Cert.KernelIdeal.Bridge

end
-- ==== Proof.lean ====
/-
  The certificate: the Pallas implementation of a two-layer graph convolution network with a logistic head (the
  dense products, the bias-and-cut-off stages and the last linear layer as five tiled kernels, the edge gathers
  and per-node sums between them on the host) computes, on the extended reals, the same function of its
  arguments as the plain reference.

  The three frame claims are the programs' runs with the result forgotten. The idealization rewrote nothing, so
  there is nothing to preserve. For the value claim the kernel program's result buffer ends at the contents the
  last region leaves, which segment by segment are the reference's intermediate values (Proof/Bridge.lean); the
  reference's result is its last stage of the same arguments; and the two memories agree on the arguments.
-/
import proofs.«179360_j41644002902519_1_alg».proof.Defs
import proofs.«179360_j41644002902519_1_alg».proof.Proof.Gen.Kernel
import proofs.«179360_j41644002902519_1_alg».proof.Proof.Gen.Kernel.Frame
import proofs.«179360_j41644002902519_1_alg».proof.Proof.Gen.KernelIdeal
import proofs.«179360_j41644002902519_1_alg».proof.Proof.Gen.KernelIdeal.Frame
import proofs.«179360_j41644002902519_1_alg».proof.Proof.Gen.ReferenceIdeal
import proofs.«179360_j41644002902519_1_alg».proof.Proof.Gen.Pre_finite_inputs
import proofs.«179360_j41644002902519_1_alg».proof.Proof.KernelRun
import proofs.«179360_j41644002902519_1_alg».proof.Proof.RefRead
import proofs.«179360_j41644002902519_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's last stage of the (shared) arguments in their result buffers. -/
theorem algebraic : Cert.algebraic_KernelIdeal_ReferenceIdeal := by
  intro m ρ m' ρ' _ hagree
  refine ⟨fun c => Cert.ReferenceIdeal.ReadP.val_main_v105 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Bridge.result m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v105_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
